-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S50000x128 .f32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : IVec S500000 32) (main_arg9 : IVec S500000 32) (main_arg10 : IVec S500000 32) (main_arg11 : IVec S500000 32) (main_arg12 : IVec S500000 32) (main_arg13 : IVec S500000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S500000x128 : Shape := ⟨2, ![500000, 128]⟩
abbrev S1x128 : Shape := ⟨2, ![1, 128]⟩
abbrev S5000x128 : Shape := ⟨2, ![5000, 128]⟩

abbrev nBuf : Space → Nat
  | .hbm => 136
  | .vmem => 16
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S500000, .i32⟩
  | 9 => ⟨S500000, .i32⟩
  | 10 => ⟨S500000, .i32⟩
  | 11 => ⟨S500000, .i32⟩
  | 12 => ⟨S500000, .i32⟩
  | 13 => ⟨S500000, .i32⟩
  | 14 => ⟨S_, .f32⟩
  | 15 => ⟨S500000, .f32⟩
  | 16 => ⟨S_, .f32⟩
  | 17 => ⟨S50000, .f32⟩
  | 18 => ⟨S500000x1, .i32⟩
  | 19 => ⟨S50000, .f32⟩
  | 20 => ⟨S_, .f32⟩
  | 21 => ⟨S50000, .f32⟩
  | 22 => ⟨S500000x1, .i32⟩
  | 23 => ⟨S50000, .f32⟩
  | 24 => ⟨S_, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S_, .f32⟩
  | 42 => ⟨S50000x128, .f32⟩
  | 43 => ⟨S500000x1, .i32⟩
  | 44 => ⟨S50000x128, .f32⟩
  | 45 => ⟨S_, .f32⟩
  | 46 => ⟨S_, .f32⟩
  | 47 => ⟨S50000, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S_, .f32⟩
  | 54 => ⟨S500000, .f32⟩
  | 55 => ⟨S_, .f32⟩
  | 56 => ⟨S50000, .f32⟩
  | 57 => ⟨S500000x1, .i32⟩
  | 58 => ⟨S50000, .f32⟩
  | 59 => ⟨S_, .f32⟩
  | 60 => ⟨S50000, .f32⟩
  | 61 => ⟨S500000x1, .i32⟩
  | 62 => ⟨S50000, .f32⟩
  | 63 => ⟨S_, .f32⟩
  | 64 => ⟨S_, .f32⟩
  | 65 => ⟨S50000, .f32⟩
  | 66 => ⟨S50000, .f32⟩
  | 67 => ⟨S50000, .f32⟩
  | 68 => ⟨S50000x1, .f32⟩
  | 69 => ⟨S50000x128, .f32⟩
  | 70 => ⟨S50000x128, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x128, .f32⟩
  | 80 => ⟨S_, .f32⟩
  | 81 => ⟨S50000x128, .f32⟩
  | 82 => ⟨S500000x1, .i32⟩
  | 83 => ⟨S50000x128, .f32⟩
  | 84 => ⟨S_, .f32⟩
  | 85 => ⟨S_, .f32⟩
  | 86 => ⟨S50000, .f32⟩
  | 87 => ⟨S50000, .f32⟩
  | 88 => ⟨S50000, .f32⟩
  | 89 => ⟨S50000x1, .f32⟩
  | 90 => ⟨S50000x128, .f32⟩
  | 91 => ⟨S50000x128, .f32⟩
  | 92 => ⟨S_, .f32⟩
  | 93 => ⟨S500000, .f32⟩
  | 94 => ⟨S_, .f32⟩
  | 95 => ⟨S50000, .f32⟩
  | 96 => ⟨S500000x1, .i32⟩
  | 97 => ⟨S50000, .f32⟩
  | 98 => ⟨S_, .f32⟩
  | 99 => ⟨S50000, .f32⟩
  | 100 => ⟨S500000x1, .i32⟩
  | 101 => ⟨S50000, .f32⟩
  | 102 => ⟨S_, .f32⟩
  | 103 => ⟨S_, .f32⟩
  | 104 => ⟨S50000, .f32⟩
  | 105 => ⟨S50000, .f32⟩
  | 106 => ⟨S50000, .f32⟩
  | 107 => ⟨S50000x1, .f32⟩
  | 108 => ⟨S50000x128, .f32⟩
  | 109 => ⟨S50000x128, .f32⟩
  | 110 => ⟨S_, .i32⟩
  | 111 => ⟨S500000, .i32⟩
  | 112 => ⟨S500000, .i1⟩
  | 113 => ⟨S_, .i32⟩
  | 114 => ⟨S500000, .i32⟩
  | 115 => ⟨S500000, .i32⟩
  | 116 => ⟨S500000, .i32⟩
  | 117 => ⟨S500000x1, .i32⟩
  | 118 => ⟨S500000x128, .f32⟩
  | 119 => ⟨S_, .f32⟩
  | 120 => ⟨S50000x128, .f32⟩
  | 121 => ⟨S500000x1, .i32⟩
  | 122 => ⟨S50000x128, .f32⟩
  | 123 => ⟨S_, .f32⟩
  | 124 => ⟨S_, .f32⟩
  | 125 => ⟨S50000, .f32⟩
  | 126 => ⟨S50000, .f32⟩
  | 127 => ⟨S50000, .f32⟩
  | _ => ⟨S50000x128, .f32⟩

abbrev hbmTy0_1 (i : Nat) : BufTy := match i % 128 with
  | 0 => ⟨S50000x1, .f32⟩
  | 1 => ⟨S50000x128, .f32⟩
  | 2 => ⟨S50000x128, .f32⟩
  | 3 => ⟨S1x128, .f32⟩
  | 4 => ⟨S1x128, .f32⟩
  | 5 => ⟨S50000x128, .f32⟩
  | 6 => ⟨S1x128, .f32⟩
  | 7 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_6 : Ref sig .tc := ⟨.hbm, 53, rfl⟩
abbrev main_v27 : Ref sig .tc := ⟨.hbm, 54, rfl⟩
abbrev main_cst_7 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_8 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_c_10 : Ref sig .tc := ⟨.hbm, 71, rfl⟩
abbrev main_v39 : Ref sig .tc := ⟨.hbm, 72, rfl⟩
abbrev main_v40 : Ref sig .tc := ⟨.hbm, 73, rfl⟩
abbrev main_c_11 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_12 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_cst_13 : Ref sig .tc := ⟨.hbm, 84, rfl⟩
abbrev main_call3_v0 : Ref sig .tc := ⟨.hbm, 85, rfl⟩
abbrev main_call3_v1 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_cst_14 : Ref sig .tc := ⟨.hbm, 92, rfl⟩
abbrev main_v54 : Ref sig .tc := ⟨.hbm, 93, rfl⟩
abbrev main_cst_15 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_cst_16 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_17 : Ref sig .tc := ⟨.hbm, 102, rfl⟩
abbrev main_call4_v0 : Ref sig .tc := ⟨.hbm, 103, rfl⟩
abbrev main_call4_v1 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_18 : Ref sig .tc := ⟨.hbm, 110, rfl⟩
abbrev main_v66 : Ref sig .tc := ⟨.hbm, 111, rfl⟩
abbrev main_v67 : Ref sig .tc := ⟨.hbm, 112, rfl⟩
abbrev main_c_19 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_20 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_21 : Ref sig .tc := ⟨.hbm, 123, rfl⟩
abbrev main_call5_v0 : Ref sig .tc := ⟨.hbm, 124, rfl⟩
abbrev main_call5_v1 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v81) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v82) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v83) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v80) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v84) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v85) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S500000 : Shape := ⟨1, ![500000]⟩
abbrev S_ : Shape := ⟨0, ![]⟩
abbrev S50000 : Shape := ⟨1, ![50000]⟩
abbrev S500000x1 : Shape := ⟨2, ![500000, 1]⟩
abbrev S50000x1 : Shape := ⟨2, ![50000, 1]⟩
abbrev S500000x128 : Shape := ⟨2, ![500000, 128]⟩
abbrev S1x128 : Shape := ⟨2, ![1, 128]⟩

abbrev nBuf : Space → Nat
  | .hbm => 144
  | .vmem => 0
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S500000, .i32⟩
  | 9 => ⟨S500000, .i32⟩
  | 10 => ⟨S500000, .i32⟩
  | 11 => ⟨S500000, .i32⟩
  | 12 => ⟨S500000, .i32⟩
  | 13 => ⟨S500000, .i32⟩
  | 14 => ⟨S_, .f32⟩
  | 15 => ⟨S500000, .f32⟩
  | 16 => ⟨S_, .f32⟩
  | 17 => ⟨S50000, .f32⟩
  | 18 => ⟨S500000x1, .i32⟩
  | 19 => ⟨S50000, .f32⟩
  | 20 => ⟨S_, .f32⟩
  | 21 => ⟨S50000, .f32⟩
  | 22 => ⟨S500000x1, .i32⟩
  | 23 => ⟨S50000, .f32⟩
  | 24 => ⟨S_, .f32⟩
  | 25 => ⟨S_, .f32⟩
  | 26 => ⟨S50000, .f32⟩
  | 27 => ⟨S50000, .f32⟩
  | 28 => ⟨S50000, .f32⟩
  | 29 => ⟨S50000x1, .f32⟩
  | 30 => ⟨S50000x128, .f32⟩
  | 31 => ⟨S50000x128, .f32⟩
  | 32 => ⟨S_, .i32⟩
  | 33 => ⟨S500000, .i32⟩
  | 34 => ⟨S500000, .i1⟩
  | 35 => ⟨S_, .i32⟩
  | 36 => ⟨S500000, .i32⟩
  | 37 => ⟨S500000, .i32⟩
  | 38 => ⟨S500000, .i32⟩
  | 39 => ⟨S500000x1, .i32⟩
  | 40 => ⟨S500000x128, .f32⟩
  | 41 => ⟨S_, .f32⟩
  | 42 => ⟨S50000x128, .f32⟩
  | 43 => ⟨S500000x1, .i32⟩
  | 44 => ⟨S50000x128, .f32⟩
  | 45 => ⟨S_, .f32⟩
  | 46 => ⟨S_, .f32⟩
  | 47 => ⟨S50000, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S_, .f32⟩
  | 58 => ⟨S500000, .f32⟩
  | 59 => ⟨S_, .f32⟩
  | 60 => ⟨S50000, .f32⟩
  | 61 => ⟨S500000x1, .i32⟩
  | 62 => ⟨S50000, .f32⟩
  | 63 => ⟨S_, .f32⟩
  | 64 => ⟨S50000, .f32⟩
  | 65 => ⟨S500000x1, .i32⟩
  | 66 => ⟨S50000, .f32⟩
  | 67 => ⟨S_, .f32⟩
  | 68 => ⟨S_, .f32⟩
  | 69 => ⟨S50000, .f32⟩
  | 70 => ⟨S50000, .f32⟩
  | 71 => ⟨S50000, .f32⟩
  | 72 => ⟨S50000x1, .f32⟩
  | 73 => ⟨S50000x128, .f32⟩
  | 74 => ⟨S50000x128, .f32⟩
  | 75 => ⟨S_, .i32⟩
  | 76 => ⟨S500000, .i32⟩
  | 77 => ⟨S500000, .i1⟩
  | 78 => ⟨S_, .i32⟩
  | 79 => ⟨S500000, .i32⟩
  | 80 => ⟨S500000, .i32⟩
  | 81 => ⟨S500000, .i32⟩
  | 82 => ⟨S500000x1, .i32⟩
  | 83 => ⟨S500000x128, .f32⟩
  | 84 => ⟨S_, .f32⟩
  | 85 => ⟨S50000x128, .f32⟩
  | 86 => ⟨S500000x1, .i32⟩
  | 87 => ⟨S50000x128, .f32⟩
  | 88 => ⟨S_, .f32⟩
  | 89 => ⟨S_, .f32⟩
  | 90 => ⟨S50000, .f32⟩
  | 91 => ⟨S50000, .f32⟩
  | 92 => ⟨S50000, .f32⟩
  | 93 => ⟨S50000x1, .f32⟩
  | 94 => ⟨S50000x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S50000x128, .f32⟩
  | 101 => ⟨S_, .f32⟩
  | 102 => ⟨S500000, .f32⟩
  | 103 => ⟨S_, .f32⟩
  | 104 => ⟨S50000, .f32⟩
  | 105 => ⟨S500000x1, .i32⟩
  | 106 => ⟨S50000, .f32⟩
  | 107 => ⟨S_, .f32⟩
  | 108 => ⟨S50000, .f32⟩
  | 109 => ⟨S500000x1, .i32⟩
  | 110 => ⟨S50000, .f32⟩
  | 111 => ⟨S_, .f32⟩
  | 112 => ⟨S_, .f32⟩
  | 113 => ⟨S50000, .f32⟩
  | 114 => ⟨S50000, .f32⟩
  | 115 => ⟨S50000, .f32⟩
  | 116 => ⟨S50000x1, .f32⟩
  | 117 => ⟨S50000x128, .f32⟩
  | 118 => ⟨S50000x128, .f32⟩
  | 119 => ⟨S_, .i32⟩
  | 120 => ⟨S500000, .i32⟩
  | 121 => ⟨S500000, .i1⟩
  | 122 => ⟨S_, .i32⟩
  | 123 => ⟨S500000, .i32⟩
  | 124 => ⟨S500000, .i32⟩
  | 125 => ⟨S500000, .i32⟩
  | 126 => ⟨S500000x1, .i32⟩
  | 127 => ⟨S500000x128, .f32⟩
  | _ => ⟨S50000x128, .f32⟩

abbrev hbmTy0_1 (i : Nat) : BufTy := match i % 128 with
  | 0 => ⟨S_, .f32⟩
  | 1 => ⟨S50000x128, .f32⟩
  | 2 => ⟨S500000x1, .i32⟩
  | 3 => ⟨S50000x128, .f32⟩
  | 4 => ⟨S_, .f32⟩
  | 5 => ⟨S_, .f32⟩
  | 6 => ⟨S50000, .f32⟩
  | 7 => ⟨S50000, .f32⟩
  | 8 => ⟨S50000, .f32⟩
  | 9 => ⟨S50000x1, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_9 : Ref sig .tc := ⟨.hbm, 67, rfl⟩
abbrev main_call2_v0 : Ref sig .tc := ⟨.hbm, 68, rfl⟩
abbrev main_call2_v1 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_10 : Ref sig .tc := ⟨.hbm, 75, rfl⟩
abbrev main_v43 : Ref sig .tc := ⟨.hbm, 76, rfl⟩
abbrev main_v44 : Ref sig .tc := ⟨.hbm, 77, rfl⟩
abbrev main_c_11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_12 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_13 : Ref sig .tc := ⟨.hbm, 88, rfl⟩
abbrev main_call3_v0 : Ref sig .tc := ⟨.hbm, 89, rfl⟩
abbrev main_call3_v1 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_cst_14 : Ref sig .tc := ⟨.hbm, 101, rfl⟩
abbrev main_v63 : Ref sig .tc := ⟨.hbm, 102, rfl⟩
abbrev main_cst_15 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_cst_16 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_17 : Ref sig .tc := ⟨.hbm, 111, rfl⟩
abbrev main_call4_v0 : Ref sig .tc := ⟨.hbm, 112, rfl⟩
abbrev main_call4_v1 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_c_18 : Ref sig .tc := ⟨.hbm, 119, rfl⟩
abbrev main_v75 : Ref sig .tc := ⟨.hbm, 120, rfl⟩
abbrev main_v76 : Ref sig .tc := ⟨.hbm, 121, rfl⟩
abbrev main_c_19 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_cst_20 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_21 : Ref sig .tc := ⟨.hbm, 132, rfl⟩
abbrev main_call5_v0 : Ref sig .tc := ⟨.hbm, 133, rfl⟩
abbrev main_call5_v1 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  scatter_S50000x128_S500000x1_S500000x128_1_0_0_1_wf : ScatterDims.WF S50000x128 S500000x1 S500000x128 [1] [0] [0] 1
  dot_S50000x128_S128x128_S50000x128_1_0_0_1_n_n_wf : DotDims.WF S50000x128 S128x128 S50000x128 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program's run, with EVERY buffer's final contents named.

  The program is a line of host operations, the two-relation kernel over its ten row tiles, one more host operation,
  and the single-relation kernel over its ten row tiles. Its generated frame follows the buffers' contents through
  these segments: after the last one every buffer that outlives a kernel holds the contents `W16` — the contents
  after the host line, with each kernel's output array replaced by what its ten write-backs leave. The frame keeps
  of this only that the arguments are unchanged; here the same launch is read for all buffers, so that the two
  results can be read off `W16`.
-/
import proofs.«174860_j49366354100285_1_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer that outlives a kernel
    ends at the contents the segments' fold gives it. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

end Cert.KernelIdeal.WholeRun

end
-- ==== Proof.NodeRows.lean ====
/-
  The dense stage of one relation, as ONE function of whole arrays.

  Every relation of the graph ends the same way: the rows aggregated over a node's in-edges, `A` (one row of 128
  features per destination node), go through a linear layer whose weight `W` is stored input-major (`W (k, c)` is the
  weight from input feature `k` to output feature `c`) and whose bias `b` is added last:

      layer A W b (r, c) = Σ_{k < 128} A (r, k) · W (k, c)  +  b c.

  The sum and the products are those of the extended reals: nothing here asks an entry to be finite. An output row
  depends on the SAME row of `A` only, which is why the rows can be computed a tile of 5000 at a time.

  The user nodes receive two relations, and their new features are the sum of the two layers' values, each layer
  keeping its own bias (`twoLayers`); the item nodes receive one.
-/
import Idealize.ShloMosaic.PureOps.Ideal
import Idealize.ShloMosaic.Lib.ValueIdx

noncomputable section

namespace Cert.NodeRows

open Idealize.ShloMosaic Idealize.ShloMosaic.ValueIdx

/-- One row of 128 features per node, for `n` nodes. -/
abbrev Rows (n : Nat) : Shape := ⟨2, ![n, 128]⟩
/-- A 128 × 128 weight, input feature first. -/
abbrev Weight : Shape := ⟨2, ![128, 128]⟩
/-- One bias per output feature. -/
abbrev Bias : Shape := ⟨1, ![128]⟩

/-- The linear layer of one relation on whole arrays: entry `(r, c)` is row `r` of `A` against column `c` of `W`,
    plus the bias of feature `c`. -/
def layer {n : Nat} (A : (Rows n).Idx → EReal) (W : Weight.Idx → EReal) (b : Bias.Idx → EReal) : (Rows n).Idx → EReal :=
  fun i => (∑ k : Fin 128, A (ix2 (n0 := n) (n1 := 128) ⟨(i 0).val, (i 0).isLt⟩ k) * W (ix2 (n0 := 128) (n1 := 128) k ⟨(i 1).val, (i 1).isLt⟩))
    + b (ix1 (n := 128) ⟨(i 1).val, (i 1).isLt⟩)

/-- The layer at an entry given by its row and its feature. -/
theorem layer_apply {n : Nat} (A : (Rows n).Idx → EReal) (W : Weight.Idx → EReal) (b : Bias.Idx → EReal) (r : Fin n) (c : Fin 128) :
    layer A W b (ix2 r c) = (∑ k : Fin 128, A (ix2 r k) * W (ix2 k c)) + b (ix1 c) := rfl

/-- Two relations into the same nodes: the sum of the two layers' values, entry by entry. -/
def twoLayers {n : Nat} (A₁ : (Rows n).Idx → EReal) (W₁ : Weight.Idx → EReal) (b₁ : Bias.Idx → EReal)
    (A₂ : (Rows n).Idx → EReal) (W₂ : Weight.Idx → EReal) (b₂ : Bias.Idx → EReal) : (Rows n).Idx → EReal :=
  fun i => layer A₁ W₁ b₁ i + layer A₂ W₂ b₂ i

end Cert.NodeRows

end
-- ==== Proof.TileBody.lean ====
/-
  What one grid point of either kernel computes, entry by entry, at the ideal values.

  A grid point holds a tile of 5000 aggregated rows `a`, the whole weight `w` and the bias as one row `b`. The single-
  relation kernel stores

      tile (p, q) = Σ_{k < 128} a (p, k) · w (k, q)  +  b (0, q) :

  the two operands are narrowed to bf16 before the product, which at the ideal values changes nothing; the product
  is accumulated into a zero tile, so it is the plain sum over the 128 contracted entries; the bias row is repeated
  down the 5000 rows. The two-relation kernel stores the sum of two such tiles, each with its own bias.
-/
import proofs.«174860_j49366354100285_1_alg».proof.Proof.Gen.KernelIdeal.Skeleton
import proofs.«174860_j49366354100285_1_alg».proof.Proof.NodeRows
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.TileBody

open Cert.KernelIdeal Cert.KernelIdeal.Gen Idealize.ShloMosaic Idealize.ShloMosaic.ValueIdx

/-! ## The product's operand entries: row `p` of the tile against column `q` of the weight -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contracted (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contracted (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_column (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a tile with the weight, accumulated into the zero tile, is at entry `(p, q)` the sum over the
    128 contracted entries of row `p` against column `q`. -/
theorem product_entry (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contracted _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_contracted _ _).trans hk
    | ⟨1, _⟩ => exact rhs_column _ _)
  rw [el, er]

/-! ## One relation's tile, and the two kernels' stored tiles -/

/-- The single-relation kernel's stored tile at an entry. -/
theorem single_entry (a : Vec Ideal S5000x128 .f32) (w : Vec Ideal S128x128 .f32) (b : Vec Ideal S1x128 .f32) (p : Fin 5000) (q : Fin 128) :
    k1_pay1 (F := Ideal) a w b (ix2 p q) = (∑ k : Fin 128, a (ix2 p k) * w (ix2 k q)) + b (ix2 (0 : Fin 1) q) := by
  unfold k1_pay1
  rw [shapeCast_self a, shapeCast_self b]
  refine congrArg₂ (· + ·) ((product_entry _ _ p q).trans ?_) (broadcastTo_1b_ab_apply b _ p q)
  rfl

/-- The two-relation kernel's stored tile is the sum of two single-relation tiles. -/
theorem dual_eq (a₁ : Vec Ideal S5000x128 .f32) (w₁ : Vec Ideal S128x128 .f32) (b₁ : Vec Ideal S1x128 .f32)
    (a₂ : Vec Ideal S5000x128 .f32) (w₂ : Vec Ideal S128x128 .f32) (b₂ : Vec Ideal S1x128 .f32) :
    k0_pay1 (F := Ideal) a₁ w₁ b₁ a₂ w₂ b₂ = addf (k1_pay1 (F := Ideal) a₁ w₁ b₁) (k1_pay1 (F := Ideal) a₂ w₂ b₂) := rfl

/-! ## A stored tile is a tile of the whole-array layer -/

/-- The bias as the kernels meet it: the host keeps it as an array of one row. -/
def biasOfRow (row : S1x128.Idx → EReal) : Cert.NodeRows.Bias.Idx → EReal :=
  fun j => row (ix2 (0 : Fin 1) (⟨(j 0).val, (j 0).isLt⟩ : Fin 128))

/-- If row `p` of the tile `a` is row `r 0` of the whole array `A`, column `q` of `w` is column `r 1` of `W`, and the
    bias row at `q` is the bias at `r 1`, then the stored tile at `(p, q)` is the whole-array layer at `r`. -/
theorem tile_is_layer (A : S50000x128.Idx → EReal) (W : S128x128.Idx → EReal) (brow : S1x128.Idx → EReal)
    (a : Vec Ideal S5000x128 .f32) (w : Vec Ideal S128x128 .f32) (b : Vec Ideal S1x128 .f32)
    (r : S50000x128.Idx) (p : Fin 5000) (q : Fin 128)
    (ha : ∀ k : Fin 128, a (ix2 p k) = A (ix2 (⟨(r 0).val, (r 0).isLt⟩ : Fin 50000) k))
    (hw : ∀ k : Fin 128, w (ix2 k q) = W (ix2 k (⟨(r 1).val, (r 1).isLt⟩ : Fin 128)))
    (hb : b (ix2 (0 : Fin 1) q) = brow (ix2 (0 : Fin 1) (⟨(r 1).val, (r 1).isLt⟩ : Fin 128))) :
    k1_pay1 (F := Ideal) a w b (ix2 p q) = Cert.NodeRows.layer (n := 50000) A W (biasOfRow brow) r := by
  rw [single_entry]
  unfold Cert.NodeRows.layer biasOfRow
  refine congrArg₂ (· + ·) (Finset.sum_congr rfl fun k _ => ?_) hb
  rw [ha k, hw k]

end Cert.KernelIdeal.TileBody

end
-- ==== Proof.UserTiles.lean ====
/-
  The user nodes' new features after the two-relation kernel: ONE function of whole arrays.

  The kernel runs over ten grid points; point `t` is handed rows `5000·t … 5000·t + 4999` of the two relations' aggregated features, the
  whole weights and the bias rows, and writes back the same rows of the output. So what point `t` writes back is tile `t`
  of ONE function of the whole arrays — the sum of two layers, \`twoLayers\` of Proof/NodeRows.lean, an output row depending only on the same
  row of the aggregated features — and the ten tiles fill the 50000 rows: row `r` lies in tile `r / 5000`.
  Everything is stated at whatever contents `V` the buffers have when the kernel is entered.
-/
import proofs.«174860_j49366354100285_1_alg».proof.Proof.Gen.KernelIdeal.Frame
import proofs.«174860_j49366354100285_1_alg».proof.Proof.TileBody
import Idealize.ShloMosaic.Lib.Pipeline.Value

set_option maxRecDepth 16384

noncomputable section

namespace Cert.KernelIdeal.UserTiles

open Cert.KernelIdeal Cert.KernelIdeal.Gen Cert.KernelIdeal.TileBody Cert.NodeRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The output array after the kernel, as one function of the arrays the kernel is entered with. -/
abbrev rowsOf (c : Dev nD) : S50000x128.Idx → EReal :=
  twoLayers (n := 50000) (V c main_v26) (V c main_arg2) (biasOfRow (V c main_v81)) (V c main_v53) (V c main_arg6) (biasOfRow (V c main_v82))

/-- The index maps, decided over the ten grid points: the aggregated rows move with the output's rows, the weights and
    the bias rows stay at their one block, and the output's row-block index is the point's. -/
theorem index_maps : ∀ t : Fin cfg0.N,
    win0_0.index t (0 : Fin 2) = win0_6.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = win0_6.index t (0 : Fin 2)
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (1 : Fin 2) = 0
    ∧ win0_6.index t (0 : Fin 2) ≤ 9 :=
  (by decide +kernel : ∀ t : Fin grid0.N, _)

/-- Every one of the ten row blocks is some point's. -/
theorem index_onto : ∀ q0 : Fin 10, ∃ t : Fin cfg0.N, win0_6.index t = ![q0.val, 0] :=
  (by decide +kernel : ∀ q0 : Fin 10, ∃ t : Fin grid0.N, win0_6.index t = ![q0.val, 0])

/-- WHAT POINT `t` WRITES BACK is tile `t` of `rowsOf`. -/
theorem written_back (c : Dev nD) (t : Fin cfg0.N) :
    (dat0 V c).flushed 6 t = ((cfg0.win 6).blk t).view.read (Elt Ideal) (rowsOf V c) := by
  show (cfg0.win 6).cut (grid0.coords t) ((dat0 V c).after 6 t) = _
  rw [after0_6]
  unfold out0_6
  rw [View.canon_unit_zero zero_offsets]
  simp only [View.ld_unit_zero (S := S5000x128) zero_offsets, View.ld_unit_zero (S := S128x128) zero_offsets, View.ld_unit_zero (S := S1x128) zero_offsets]
  obtain ⟨e0, e1, e2, e3, e4, e5, e6, e7, e8, e9, e10, e11, e12, e13⟩ := index_maps t
  funext j
  obtain ⟨p, q, rfl⟩ : ∃ (p : Fin 5000) (q : Fin 128), j = ix2 p q := ⟨j 0, j 1, eq_ix2 j⟩
  refine (congrFun (dual_eq (iblk0 V c 0 t) (iblk0 V c 1 t) (iblk0 V c 2 t) (iblk0 V c 3 t) (iblk0 V c 4 t) (iblk0 V c 5 t)) (ix2 p q)).trans ?_
  exact congrArg₂ (· + ·)
    (tile_is_layer (V c main_v26) (V c main_arg2) (V c main_v81) (iblk0 V c 0 t) (iblk0 V c 1 t) (iblk0 V c 2 t)
      (((cfg0.win 6).blk t).view.emb (ix2 p q)) p q
      (fun k => by
        show V c main_v26 (((cfg0.win 0).blk t).view.emb (ix2 p k)) = _
        refine congrArg (V c main_v26) (funext fun a => Fin.ext ?_)
        match a with
        | ⟨0, _⟩ => show win0_0.index t (0 : Fin 2) * 5000 + 1 * p.val = win0_6.index t (0 : Fin 2) * 5000 + 1 * p.val; omega
        | ⟨1, _⟩ => show win0_0.index t (1 : Fin 2) * 128 + 1 * k.val = k.val; omega)
      (fun k => by
        show V c main_arg2 (((cfg0.win 1).blk t).view.emb (ix2 k q)) = _
        refine congrArg (V c main_arg2) (funext fun a => Fin.ext ?_)
        match a with
        | ⟨0, _⟩ => show win0_1.index t (0 : Fin 2) * 128 + 1 * k.val = k.val; omega
        | ⟨1, _⟩ => show win0_1.index t (1 : Fin 2) * 128 + 1 * q.val = win0_6.index t (1 : Fin 2) * 128 + 1 * q.val; omega)
      (by
        show V c main_v81 (((cfg0.win 2).blk t).view.emb (ix2 (0 : Fin 1) q)) = _
        refine congrArg (V c main_v81) (funext fun a => Fin.ext ?_)
        match a with
        | ⟨0, _⟩ => show win0_2.index t (0 : Fin 2) * 1 + 1 * 0 = 0; omega
        | ⟨1, _⟩ => show win0_2.index t (1 : Fin 2) * 128 + 1 * q.val = win0_6.index t (1 : Fin 2) * 128 + 1 * q.val; omega))
    (tile_is_layer (V c main_v53) (V c main_arg6) (V c main_v82) (iblk0 V c 3 t) (iblk0 V c 4 t) (iblk0 V c 5 t)
      (((cfg0.win 6).blk t).view.emb (ix2 p q)) p q
      (fun k => by
        show V c main_v53 (((cfg0.win 3).blk t).view.emb (ix2 p k)) = _
        refine congrArg (V c main_v53) (funext fun a => Fin.ext ?_)
        match a with
        | ⟨0, _⟩ => show win0_3.index t (0 : Fin 2) * 5000 + 1 * p.val = win0_6.index t (0 : Fin 2) * 5000 + 1 * p.val; omega
        | ⟨1, _⟩ => show win0_3.index t (1 : Fin 2) * 128 + 1 * k.val = k.val; omega)
      (fun k => by
        show V c main_arg6 (((cfg0.win 4).blk t).view.emb (ix2 k q)) = _
        refine congrArg (V c main_arg6) (funext fun a => Fin.ext ?_)
        match a with
        | ⟨0, _⟩ => show win0_4.index t (0 : Fin 2) * 128 + 1 * k.val = k.val; omega
        | ⟨1, _⟩ => show win0_4.index t (1 : Fin 2) * 128 + 1 * q.val = win0_6.index t (1 : Fin 2) * 128 + 1 * q.val; omega)
      (by
        show V c main_v82 (((cfg0.win 5).blk t).view.emb (ix2 (0 : Fin 1) q)) = _
        refine congrArg (V c main_v82) (funext fun a => Fin.ext ?_)
        match a with
        | ⟨0, _⟩ => show win0_5.index t (0 : Fin 2) * 1 + 1 * 0 = 0; omega
        | ⟨1, _⟩ => show win0_5.index t (1 : Fin 2) * 128 + 1 * q.val = win0_6.index t (1 : Fin 2) * 128 + 1 * q.val; omega))

/-- An index of the output array is in point `t`'s tile iff each coordinate is in the tile's range on its axis. -/
theorem mem_tile (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v83).slice (win0_6.rect t)).set ↔ _
  rw [View.set_slice_whole, Rect.mem_set_unit]
  exact Iff.rfl

/-- The ten tiles fill the array: row `r` is in tile `r / 5000`. -/
theorem tiles_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := index_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_tile]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE OUTPUT ARRAY after the kernel is `rowsOf` of the arrays it was entered with. -/
theorem array_after (c : Dev nD) : (dat0 V c).arrAt 6 cfg0.N = rowsOf V c :=
  (dat0 V c).arrAt_eq_of_cover 6 (rowsOf V c) (fun t _ => written_back V c t) tiles_cover

end Cert.KernelIdeal.UserTiles

end
-- ==== Proof.ItemTiles.lean ====
/-
  The item nodes' new features after the single-relation kernel: ONE function of whole arrays.

  The kernel runs over ten grid points; point `t` is handed rows `5000·t … 5000·t + 4999` of the relation's aggregated features, the
  whole weight and the bias row, and writes back the same rows of the output. So what point `t` writes back is tile `t`
  of ONE function of the whole arrays — the linear layer, \`layer\` of Proof/NodeRows.lean, an output row depending only on the same
  row of the aggregated features — and the ten tiles fill the 50000 rows: row `r` lies in tile `r / 5000`.
  Everything is stated at whatever contents `V` the buffers have when the kernel is entered.
-/
import proofs.«174860_j49366354100285_1_alg».proof.Proof.Gen.KernelIdeal.Frame
import proofs.«174860_j49366354100285_1_alg».proof.Proof.TileBody
import Idealize.ShloMosaic.Lib.Pipeline.Value

set_option maxRecDepth 16384

noncomputable section

namespace Cert.KernelIdeal.ItemTiles

open Cert.KernelIdeal Cert.KernelIdeal.Gen Cert.KernelIdeal.TileBody Cert.NodeRows
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The output array after the kernel, as one function of the arrays the kernel is entered with. -/
abbrev rowsOf (c : Dev nD) : S50000x128.Idx → EReal :=
  layer (n := 50000) (V c main_v80) (V c main_arg4) (biasOfRow (V c main_v84))

/-- The index maps, decided over the ten grid points: the aggregated rows move with the output's rows, the weight and
    the bias row stay at their one block, and the output's row-block index is the point's. -/
theorem index_maps : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every one of the ten row blocks is some point's. -/
theorem index_onto : ∀ q0 : Fin 10, ∃ t : Fin cfg1.N, win1_3.index t = ![q0.val, 0] :=
  (by decide +kernel : ∀ q0 : Fin 10, ∃ t : Fin grid1.N, win1_3.index t = ![q0.val, 0])

/-- WHAT POINT `t` WRITES BACK is tile `t` of `rowsOf`. -/
theorem written_back (c : Dev nD) (t : Fin cfg1.N) :
    (dat1 V c).flushed 3 t = ((cfg1.win 3).blk t).view.read (Elt Ideal) (rowsOf V c) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S128x128) zero_offsets, View.ld_unit_zero (S := S1x128) zero_offsets]
  obtain ⟨e0, e1, e2, e3, e4, e5, e6, e7⟩ := index_maps t
  funext j
  obtain ⟨p, q, rfl⟩ : ∃ (p : Fin 5000) (q : Fin 128), j = ix2 p q := ⟨j 0, j 1, eq_ix2 j⟩
  exact (tile_is_layer (V c main_v80) (V c main_arg4) (V c main_v84) (iblk1 V c 0 t) (iblk1 V c 1 t) (iblk1 V c 2 t)
    (((cfg1.win 3).blk t).view.emb (ix2 p q)) p q
    (fun k => by
      show V c main_v80 (((cfg1.win 0).blk t).view.emb (ix2 p k)) = _
      refine congrArg (V c main_v80) (funext fun a => Fin.ext ?_)
      match a with
      | ⟨0, _⟩ => show win1_0.index t (0 : Fin 2) * 5000 + 1 * p.val = win1_3.index t (0 : Fin 2) * 5000 + 1 * p.val; omega
      | ⟨1, _⟩ => show win1_0.index t (1 : Fin 2) * 128 + 1 * k.val = k.val; omega)
    (fun k => by
      show V c main_arg4 (((cfg1.win 1).blk t).view.emb (ix2 k q)) = _
      refine congrArg (V c main_arg4) (funext fun a => Fin.ext ?_)
      match a with
      | ⟨0, _⟩ => show win1_1.index t (0 : Fin 2) * 128 + 1 * k.val = k.val; omega
      | ⟨1, _⟩ => show win1_1.index t (1 : Fin 2) * 128 + 1 * q.val = win1_3.index t (1 : Fin 2) * 128 + 1 * q.val; omega)
    (by
      show V c main_v84 (((cfg1.win 2).blk t).view.emb (ix2 (0 : Fin 1) q)) = _
      refine congrArg (V c main_v84) (funext fun a => Fin.ext ?_)
      match a with
      | ⟨0, _⟩ => show win1_2.index t (0 : Fin 2) * 1 + 1 * 0 = 0; omega
      | ⟨1, _⟩ => show win1_2.index t (1 : Fin 2) * 128 + 1 * q.val = win1_3.index t (1 : Fin 2) * 128 + 1 * q.val; omega))

/-- An index of the output array is in point `t`'s tile iff each coordinate is in the tile's range on its axis. -/
theorem mem_tile (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v85).slice (win1_3.rect t)).set ↔ _
  rw [View.set_slice_whole, Rect.mem_set_unit]
  exact Iff.rfl

/-- The ten tiles fill the array: row `r` is in tile `r / 5000`. -/
theorem tiles_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_tile]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE OUTPUT ARRAY after the kernel is `rowsOf` of the arrays it was entered with. -/
theorem array_after (c : Dev nD) : (dat1 V c).arrAt 3 cfg1.N = rowsOf V c :=
  (dat1 V c).arrAt_eq_of_cover 3 (rowsOf V c) (fun t _ => written_back V c t) tiles_cover

end Cert.KernelIdeal.ItemTiles

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.EntryLine.lean ====
/-
  The host operations before the first kernel, read as one line.

  The generated frame follows the buffers' contents through thirteen stretches of host operations (the program's own
  lines, and between them the three operations of each call of the clipping function). Run one after the other they are
  one line of 105 operations, and what a buffer holds when the first kernel is entered is that line's fold from the
  launch contents at the buffer: an operation's result where the operation writes the buffer, the previous contents
  elsewhere.
-/
import proofs.«174860_j49366354100285_1_alg».proof.Proof.Gen.KernelIdeal.Frame
import proofs.«174860_j49366354100285_1_alg».proof.Proof.LibTypedRefs

set_option maxRecDepth 16384

noncomputable section

namespace Cert.KernelIdeal.EntryLine

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The host operations before the first kernel, as one line. -/
abbrev hostLine : List (HloOp τ sig (Elt F)) :=
  hostOps0 ++ hostOps0_1 ++ hostOps0_2 ++ hostOps0_3 ++ hostOps0_4 ++ hostOps0_5 ++ hostOps0_6 ++ hostOps0_7 ++ hostOps0_8 ++ hostOps0_9 ++ hostOps0_10 ++ hostOps0_11 ++ hostOps0_12

/-- The contents at the first kernel's entry are the whole line's fold from the launch contents. -/
theorem at_first_kernel (c : Dev nD) : W13 m ρ c = StableHlo.after hostLine (W0 m ρ c) := by
  unfold hostLine
  simp only [StableHlo.after_append]

/-- Reads a buffer at the first kernel's entry back through the line, to the operations' term of the launch contents. -/
macro "read_host_line" : tactic =>
  `(tactic| (rw [Cert.KernelIdeal.EntryLine.at_first_kernel]
             simp only [Cert.KernelIdeal.EntryLine.hostLine, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, List.cons_append, List.nil_append, List.append_nil]
             after_results_simp))

end Cert.KernelIdeal.EntryLine

end
-- ==== Proof.Aggregate.lean ====
/-
  The neighbourhood aggregation both programs compute on the host, as ONE function.

  For a relation with source indices `src` and destination indices `dst` (one pair per edge) and source features `h`:

    * `invSqrtDegree idx` — count, per node, the edges whose index is that node (a scatter-add of ones into zeros), clip
      the count below at one, and take the inverse square root;
    * scale each source row by its node's `invSqrtDegree src`; for every edge take the row of its source (a negative
      index counts from the end: `wrapped`); add the edges' rows into their destinations' rows (a scatter-add into
      zeros); scale each destination row by its node's `invSqrtDegree dst`.

  The certificate never opens this function: the idealized kernel program and the idealized reference apply the same
  operations, in the same order, to the same arguments, and that is all that is used of it. It is generic in the float
  instance.
-/
import proofs.«174860_j49366354100285_1_alg».proof.Proof.Gen.KernelIdeal

noncomputable section

namespace Cert.KernelIdeal.Aggregate

open Cert.KernelIdeal Cert.KernelIdeal.Gen Idealize.ShloMosaic

variable {F : FTy → Type} [FloatOps F]

/-- Per node: (the number of edges whose index is the node, at least one) to the power -1/2. -/
def invSqrtDegree (idx : (⟨S500000, .i32⟩ : BufTy).Contents (Elt F)) : (⟨S50000, .f32⟩ : BufTy).Contents (Elt F) :=
  Host.rsqrt (maximumf (broadcastInDim S50000 ![] bcast_S_S50000 (id (constant S_ .f32 0x3F800000#32)))
    (Host.scatterAdd scatter_S50000_S500000x1_S500000_n_0_0_1 (broadcastInDim S50000 ![] bcast_S_S50000 (constant S_ .f32 0x00000000#32))
      (broadcastInDim S500000x1 ![0] bcast_S500000_S500000x1_0 idx) (broadcastInDim S500000 ![] bcast_S_S500000 (constant S_ .f32 0x3F800000#32))))

/-- One factor per node, repeated along the node's 128 features. -/
def alongRow (v : (⟨S50000, .f32⟩ : BufTy).Contents (Elt F)) : (⟨S50000x128, .f32⟩ : BufTy).Contents (Elt F) :=
  broadcastInDim S50000x128 ![0, 1] bcast_S50000x1_S50000x128_0_1 (broadcastInDim S50000x1 ![0] bcast_S50000_S50000x1_0 v)

/-- The source indices as the gather takes them: a negative index counts from the end. -/
def wrapped (idx : (⟨S500000, .i32⟩ : BufTy).Contents (Elt F)) : (⟨S500000x1, .i32⟩ : BufTy).Contents (Elt F) :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 50000#32))) idx)

/-- The aggregated rows of one relation: per destination node, the sum over its in-edges of the scaled source rows,
    scaled by the destination's factor. -/
def neighbourRows (h : (⟨S50000x128, .f32⟩ : BufTy).Contents (Elt F)) (src dst : (⟨S500000, .i32⟩ : BufTy).Contents (Elt F)) :
    (⟨S50000x128, .f32⟩ : BufTy).Contents (Elt F) :=
  mulf (Host.scatterAdd scatter_S50000x128_S500000x1_S500000x128_1_0_0_1 (broadcastInDim S50000x128 ![] bcast_S_S50000x128 (constant S_ .f32 0x00000000#32))
      (broadcastInDim S500000x1 ![0] bcast_S500000_S500000x1_0 dst)
      (Host.gather gather_S50000x128_S500000x1_S500000x128_1_0_n_n_0_1_1128 (mulf h (alongRow (invSqrtDegree src))) (wrapped src)))
    (alongRow (invSqrtDegree dst))

end Cert.KernelIdeal.Aggregate

end
-- ==== Proof.EntryFollows.lean ====
/-
  What the first kernel finds in the buffers of the user-follows-user relation.

  Its aggregated rows are `neighbourRows` of the relation's source features and index arrays as launched; its weight is
  the argument as launched (no host operation writes an argument); its bias row is the bias argument seen as an array
  of one row, so that read back as a vector it is the bias argument.
-/
import proofs.«174860_j49366354100285_1_alg».proof.Proof.EntryLine
import proofs.«174860_j49366354100285_1_alg».proof.Proof.Aggregate
import proofs.«174860_j49366354100285_1_alg».proof.Proof.TileBody
import Idealize.ShloMosaic.Lib.ValueLayout

set_option maxRecDepth 16384

noncomputable section

namespace Cert.KernelIdeal.EntryFollows

open Cert.KernelIdeal Cert.KernelIdeal.Gen Cert.KernelIdeal.EntryLine Cert.KernelIdeal.Aggregate Cert.KernelIdeal.TileBody
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

set_option maxHeartbeats 4000000 in
/-- The aggregated rows. -/
theorem rows (c : Dev nD) :
    V13 m ρ c main_v26 = neighbourRows (m ((c : Thread nD τ).loc main_arg0)) (m ((c : Thread nD τ).loc main_arg8)) (m ((c : Thread nD τ).loc main_arg9)) := by
  show W13 m ρ c (Proc.devRef .tc main_v26) = _
  read_host_line
  rfl

set_option maxHeartbeats 4000000 in
/-- The weight. -/
theorem weight (c : Dev nD) : V13 m ρ c main_arg2 = (m ((c : Thread nD τ).loc main_arg2)) := by
  show W13 m ρ c (Proc.devRef .tc main_arg2) = _
  read_host_line

set_option maxHeartbeats 4000000 in
/-- The bias row, read back as a vector. -/
theorem bias (c : Dev nD) : biasOfRow (V13 m ρ c main_v81) = (m ((c : Thread nD τ).loc main_arg3)) := by
  have h : V13 m ρ c main_v81 = shapeCast S1x128 (m ((c : Thread nD τ).loc main_arg3)) shapeCasts_S128_S1x128 := by
    show W13 m ρ c (Proc.devRef .tc main_v81) = _
    read_host_line
    rfl
  rw [h]
  funext j
  obtain ⟨q, rfl⟩ : ∃ q : Fin 128, j = ix1 q := ⟨j 0, eq_ix1 j⟩
  exact shapeCast_a_1a_apply _ _ (0 : Fin 1) q

end Cert.KernelIdeal.EntryFollows

end
-- ==== Proof.EntryClickedBy.lean ====
/-
  What the first kernel finds in the buffers of the item-clicked-by-user relation.

  Its aggregated rows are `neighbourRows` of the relation's source features and index arrays as launched; its weight is
  the argument as launched (no host operation writes an argument); its bias row is the bias argument seen as an array
  of one row, so that read back as a vector it is the bias argument.
-/
import proofs.«174860_j49366354100285_1_alg».proof.Proof.EntryLine
import proofs.«174860_j49366354100285_1_alg».proof.Proof.Aggregate
import proofs.«174860_j49366354100285_1_alg».proof.Proof.TileBody
import Idealize.ShloMosaic.Lib.ValueLayout

set_option maxRecDepth 16384

noncomputable section

namespace Cert.KernelIdeal.EntryClickedBy

open Cert.KernelIdeal Cert.KernelIdeal.Gen Cert.KernelIdeal.EntryLine Cert.KernelIdeal.Aggregate Cert.KernelIdeal.TileBody
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

set_option maxHeartbeats 4000000 in
/-- The aggregated rows. -/
theorem rows (c : Dev nD) :
    V13 m ρ c main_v53 = neighbourRows (m ((c : Thread nD τ).loc main_arg1)) (m ((c : Thread nD τ).loc main_arg12)) (m ((c : Thread nD τ).loc main_arg13)) := by
  show W13 m ρ c (Proc.devRef .tc main_v53) = _
  read_host_line
  rfl

set_option maxHeartbeats 4000000 in
/-- The weight. -/
theorem weight (c : Dev nD) : V13 m ρ c main_arg6 = (m ((c : Thread nD τ).loc main_arg6)) := by
  show W13 m ρ c (Proc.devRef .tc main_arg6) = _
  read_host_line

set_option maxHeartbeats 4000000 in
/-- The bias row, read back as a vector. -/
theorem bias (c : Dev nD) : biasOfRow (V13 m ρ c main_v82) = (m ((c : Thread nD τ).loc main_arg7)) := by
  have h : V13 m ρ c main_v82 = shapeCast S1x128 (m ((c : Thread nD τ).loc main_arg7)) shapeCasts_S128_S1x128 := by
    show W13 m ρ c (Proc.devRef .tc main_v82) = _
    read_host_line
    rfl
  rw [h]
  funext j
  obtain ⟨q, rfl⟩ : ∃ q : Fin 128, j = ix1 q := ⟨j 0, eq_ix1 j⟩
  exact shapeCast_a_1a_apply _ _ (0 : Fin 1) q

end Cert.KernelIdeal.EntryClickedBy

end
-- ==== Proof.EntryClicks.lean ====
/-
  What the second kernel finds in the buffers of the user-clicks-item relation.

  Between the two kernels the host only reshapes this relation's bias into one row, and the first kernel changes no
  buffer but its own output: so the aggregated rows and the weight are still what the host line before the first
  kernel left — `neighbourRows` of the launch contents, and the argument as launched — and the bias row, read back
  as a vector, is the bias argument.
-/
import proofs.«174860_j49366354100285_1_alg».proof.Proof.EntryLine
import proofs.«174860_j49366354100285_1_alg».proof.Proof.Aggregate
import proofs.«174860_j49366354100285_1_alg».proof.Proof.TileBody
import Idealize.ShloMosaic.Lib.ValueLayout

set_option maxRecDepth 16384

noncomputable section

namespace Cert.KernelIdeal.EntryClicks

open Cert.KernelIdeal Cert.KernelIdeal.Gen Cert.KernelIdeal.EntryLine Cert.KernelIdeal.Aggregate Cert.KernelIdeal.TileBody
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg)

set_option maxHeartbeats 4000000 in
/-- The aggregated rows. -/
theorem rows (c : Dev nD) :
    V15 m ρ c main_v80 = neighbourRows (m ((c : Thread nD τ).loc main_arg0)) (m ((c : Thread nD τ).loc main_arg10)) (m ((c : Thread nD τ).loc main_arg11)) := by
  show StableHlo.after hostOps1 (W14 m ρ c) (Proc.devRef .tc main_v80) = _
  after_results_simp
  rw [W14_of_ne m ρ c main_v80 (by decide)]
  read_host_line
  rfl

set_option maxHeartbeats 4000000 in
/-- The weight. -/
theorem weight (c : Dev nD) : V15 m ρ c main_arg4 = (m ((c : Thread nD τ).loc main_arg4)) := by
  show StableHlo.after hostOps1 (W14 m ρ c) (Proc.devRef .tc main_arg4) = _
  after_results_simp
  rw [W14_of_ne m ρ c main_arg4 (by decide)]
  read_host_line

set_option maxHeartbeats 4000000 in
/-- The bias row, read back as a vector. -/
theorem bias (c : Dev nD) : biasOfRow (V15 m ρ c main_v84) = (m ((c : Thread nD τ).loc main_arg5)) := by
  have h0 : W13 m ρ c (Proc.devRef .tc main_arg5) = (m ((c : Thread nD τ).loc main_arg5)) := by read_host_line
  have h : V15 m ρ c main_v84 = shapeCast S1x128 (m ((c : Thread nD τ).loc main_arg5)) shapeCasts_S128_S1x128 := by
    show StableHlo.after hostOps1 (W14 m ρ c) (Proc.devRef .tc main_v84) = _
    after_results_simp
    rw [W14_of_ne m ρ c main_arg5 (by decide), h0]
    rfl
  rw [h]
  funext j
  obtain ⟨q, rfl⟩ : ∃ q : Fin 128, j = ix1 q := ⟨j 0, eq_ix1 j⟩
  exact shapeCast_a_1a_apply _ _ (0 : Fin 1) q

end Cert.KernelIdeal.EntryClicks

end
-- ==== Proof.Results.lean ====
/-
  The two results, as functions of the fourteen arguments, at the ideal values.

  `users`: the user nodes receive the user-follows-user relation (source features: the users') and the
  item-clicked-by-user relation (source features: the items'); each is aggregated over its edges and sent through its
  own linear layer, and the two layers' values are added.
  `items`: the item nodes receive the user-clicks-item relation (source features: the users'), aggregated and sent
  through its layer.

  Both programs are shown to end with exactly these two arrays.
-/
import proofs.«174860_j49366354100285_1_alg».proof.Proof.Aggregate
import proofs.«174860_j49366354100285_1_alg».proof.Proof.NodeRows

noncomputable section

namespace Cert.Results

open Cert.KernelIdeal Idealize.ShloMosaic
open Cert.KernelIdeal.Aggregate (neighbourRows)
open Cert.NodeRows (layer twoLayers)

/-- The user nodes' new features. -/
def users (hUser hItem : (⟨S50000x128, .f32⟩ : BufTy).Contents (Elt Ideal)) (wFollows : (⟨S128x128, .f32⟩ : BufTy).Contents (Elt Ideal)) (bFollows : (⟨S128, .f32⟩ : BufTy).Contents (Elt Ideal)) (wClickedBy : (⟨S128x128, .f32⟩ : BufTy).Contents (Elt Ideal)) (bClickedBy : (⟨S128, .f32⟩ : BufTy).Contents (Elt Ideal))
    (followsSrc followsDst clickedBySrc clickedByDst : (⟨S500000, .i32⟩ : BufTy).Contents (Elt Ideal)) : S50000x128.Idx → EReal :=
  twoLayers (n := 50000) (neighbourRows hUser followsSrc followsDst) wFollows bFollows
    (neighbourRows hItem clickedBySrc clickedByDst) wClickedBy bClickedBy

/-- The item nodes' new features. -/
def items (hUser : (⟨S50000x128, .f32⟩ : BufTy).Contents (Elt Ideal)) (wClicks : (⟨S128x128, .f32⟩ : BufTy).Contents (Elt Ideal)) (bClicks : (⟨S128, .f32⟩ : BufTy).Contents (Elt Ideal)) (clicksSrc clicksDst : (⟨S500000, .i32⟩ : BufTy).Contents (Elt Ideal)) : S50000x128.Idx → EReal :=
  layer (n := 50000) (neighbourRows hUser clicksSrc clicksDst) wClicks bClicks

end Cert.Results

end
-- ==== Proof.KernelResults.lean ====
/-
  The idealized kernel program's two results, read off the buffers' final contents.

  The user nodes' result is the first kernel's output array: the second kernel and the host line between the two do not
  touch it, the first kernel leaves it at the sum of two layers of what it was entered with, and it was entered with
  the two relations' aggregated rows, their weights as launched and their biases as one row each.
  The item nodes' result is the second kernel's output array, in the same way with one relation.
-/
import proofs.«174860_j49366354100285_1_alg».proof.Proof.UserTiles
import proofs.«174860_j49366354100285_1_alg».proof.Proof.ItemTiles
import proofs.«174860_j49366354100285_1_alg».proof.Proof.EntryFollows
import proofs.«174860_j49366354100285_1_alg».proof.Proof.EntryClickedBy
import proofs.«174860_j49366354100285_1_alg».proof.Proof.EntryClicks
import proofs.«174860_j49366354100285_1_alg».proof.Proof.Results

set_option maxRecDepth 16384

noncomputable section

namespace Cert.KernelIdeal.KernelResults

open Cert.KernelIdeal Cert.KernelIdeal.Gen Cert.KernelIdeal.TileBody Cert.NodeRows
open Idealize.ShloMosaic Idealize.ShloMosaic.TcCoe Idealize.ShloMosaic.StableHlo Idealize.SL.Sem

variable (m : (ℓ : Loc nD τ sig) → Buf (Elt Ideal) ℓ) (ρ : Dev nD → PrngReg)

/-- The user nodes' result. -/
theorem users (c : Dev nD) :
    W16 m ρ c (Proc.devRef .tc main_v83)
      = Cert.Results.users (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
          (m ((c : Thread nD τ).loc main_arg8)) (m ((c : Thread nD τ).loc main_arg9)) (m ((c : Thread nD τ).loc main_arg12)) (m ((c : Thread nD τ).loc main_arg13)) := by
  rw [W16_of_ne m ρ c main_v83 (by decide)]
  show StableHlo.after hostOps1 (W14 m ρ c) (Proc.devRef .tc main_v83) = _
  after_results_simp
  refine (W14_arr m ρ c 6).trans ((UserTiles.array_after (V13 m ρ) c).trans ?_)
  show twoLayers (n := 50000) (V13 m ρ c main_v26) (V13 m ρ c main_arg2) (biasOfRow (V13 m ρ c main_v81))
    (V13 m ρ c main_v53) (V13 m ρ c main_arg6) (biasOfRow (V13 m ρ c main_v82)) = _
  rw [EntryFollows.rows m ρ c, EntryFollows.weight m ρ c, EntryFollows.bias m ρ c,
    EntryClickedBy.rows m ρ c, EntryClickedBy.weight m ρ c, EntryClickedBy.bias m ρ c]
  rfl

/-- The item nodes' result. -/
theorem items (c : Dev nD) :
    W16 m ρ c (Proc.devRef .tc main_v85)
      = Cert.Results.items (m ((c : Thread nD τ).loc main_arg0)) (m ((c : Thread nD τ).loc main_arg4)) (m ((c : Thread nD τ).loc main_arg5)) (m ((c : Thread nD τ).loc main_arg10)) (m ((c : Thread nD τ).loc main_arg11)) := by
  refine (W16_arr m ρ c 3).trans ((ItemTiles.array_after (V15 m ρ) c).trans ?_)
  show layer (n := 50000) (V15 m ρ c main_v80) (V15 m ρ c main_arg4) (biasOfRow (V15 m ρ c main_v84)) = _
  rw [EntryClicks.rows m ρ c, EntryClicks.weight m ρ c, EntryClicks.bias m ρ c]
  rfl

end Cert.KernelIdeal.KernelResults

end
-- ==== Proof.RefRows.lean ====
/-
  The reference's two results are the whole-array layers of Proof/NodeRows.lean, applied to its own aggregated rows.

  After aggregating a relation, the reference multiplies the aggregated rows by the weight (a contraction of the rows'
  128 features against the weight's input axis: at the ideal values the plain sum of the 128 products), repeats the bias
  along the rows (first as one row, then down all rows) and adds it. The user nodes' result is the sum of two such
  stages, the item nodes' result is one. Each stage is read entry by entry through the generated one-operation-at-a-time
  lemmas; the aggregation stage is left as it is.
-/
import proofs.«174860_j49366354100285_1_alg».proof.Proof.Gen.ReferenceIdeal.Read
import proofs.«174860_j49366354100285_1_alg».proof.Proof.NodeRows

noncomputable section

namespace Cert.ReferenceIdeal.Rows

open Cert.ReferenceIdeal Cert.ReferenceIdeal.Read Cert.NodeRows Idealize.ShloMosaic Idealize.ShloMosaic.ValueIdx

/-- The user-follows-user relation's dense stage. -/
theorem follows_stage (x0 : (⟨S50000x128, .f32⟩ : BufTy).Contents (Elt Ideal)) (x2 : (⟨S128x128, .f32⟩ : BufTy).Contents (Elt Ideal)) (x3 : (⟨S128, .f32⟩ : BufTy).Contents (Elt Ideal)) (x8 x9 : (⟨S500000, .i32⟩ : BufTy).Contents (Elt Ideal)) :
    val_main_v30 (F := Ideal) x0 x2 x3 x8 x9 = layer (n := 50000) (val_main_v26 (F := Ideal) x0 x8 x9) x2 x3 := by
  funext i
  rw [val_main_v30_apply, val_main_v27_apply, val_main_v29_apply, val_main_v28_apply]
  unfold layer
  refine congrArg₂ (· + ·) (Finset.sum_congr rfl fun k _ => congrArg₂ (· * ·) (congrArg _ ?_) (congrArg _ ?_)) (congrArg _ ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The item-clicked-by-user relation's dense stage. -/
theorem clickedby_stage (x1 : (⟨S50000x128, .f32⟩ : BufTy).Contents (Elt Ideal)) (x6 : (⟨S128x128, .f32⟩ : BufTy).Contents (Elt Ideal)) (x7 : (⟨S128, .f32⟩ : BufTy).Contents (Elt Ideal)) (x12 x13 : (⟨S500000, .i32⟩ : BufTy).Contents (Elt Ideal)) :
    val_main_v61 (F := Ideal) x1 x6 x7 x12 x13 = layer (n := 50000) (val_main_v57 (F := Ideal) x1 x12 x13) x6 x7 := by
  funext i
  rw [val_main_v61_apply, val_main_v58_apply, val_main_v60_apply, val_main_v59_apply]
  unfold layer
  refine congrArg₂ (· + ·) (Finset.sum_congr rfl fun k _ => congrArg₂ (· * ·) (congrArg _ ?_) (congrArg _ ?_)) (congrArg _ ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The user-clicks-item relation's dense stage: the item nodes' result. -/
theorem clicks_stage (x0 : (⟨S50000x128, .f32⟩ : BufTy).Contents (Elt Ideal)) (x4 : (⟨S128x128, .f32⟩ : BufTy).Contents (Elt Ideal)) (x5 : (⟨S128, .f32⟩ : BufTy).Contents (Elt Ideal)) (x10 x11 : (⟨S500000, .i32⟩ : BufTy).Contents (Elt Ideal)) :
    val_main_v93 (F := Ideal) x0 x4 x5 x10 x11 = layer (n := 50000) (val_main_v89 (F := Ideal) x0 x10 x11) x4 x5 := by
  funext i
  rw [val_main_v93_apply, val_main_v90_apply, val_main_v92_apply, val_main_v91_apply]
  unfold layer
  refine congrArg₂ (· + ·) (Finset.sum_congr rfl fun k _ => congrArg₂ (· * ·) (congrArg _ ?_) (congrArg _ ?_)) (congrArg _ ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The user nodes' result: the two relations' stages, added entry by entry. -/
theorem users_result (x0 x1 : (⟨S50000x128, .f32⟩ : BufTy).Contents (Elt Ideal)) (x2 : (⟨S128x128, .f32⟩ : BufTy).Contents (Elt Ideal)) (x3 : (⟨S128, .f32⟩ : BufTy).Contents (Elt Ideal)) (x6 : (⟨S128x128, .f32⟩ : BufTy).Contents (Elt Ideal)) (x7 : (⟨S128, .f32⟩ : BufTy).Contents (Elt Ideal)) (x8 x9 x12 x13 : (⟨S500000, .i32⟩ : BufTy).Contents (Elt Ideal)) :
    val_main_v62 (F := Ideal) x0 x1 x2 x3 x6 x7 x8 x9 x12 x13
      = twoLayers (n := 50000) (val_main_v26 (F := Ideal) x0 x8 x9) x2 x3 (val_main_v57 (F := Ideal) x1 x12 x13) x6 x7 := by
  funext i
  rw [val_main_v62_apply, follows_stage, clickedby_stage]
  rfl

end Cert.ReferenceIdeal.Rows

end
-- ==== Proof.RefAggregate.lean ====
/-
  The reference aggregates each relation by the same operations as the kernel program.

  Its three aggregation stages — user-follows-user, item-clicked-by-user, user-clicks-item — are, operation for
  operation and constant for constant, the function `neighbourRows` of Proof/Aggregate.lean applied to that relation's
  source features and index arrays: the stages' definitions unfold to it.
-/
import proofs.«174860_j49366354100285_1_alg».proof.Proof.Gen.ReferenceIdeal.Read
import proofs.«174860_j49366354100285_1_alg».proof.Proof.Aggregate

noncomputable section

namespace Cert.ReferenceIdeal.SameAggregation

open Cert.ReferenceIdeal Cert.ReferenceIdeal.Read Idealize.ShloMosaic
open Cert.KernelIdeal.Aggregate (neighbourRows)

variable {F : FTy → Type} [FloatOps F]

theorem follows (x0 : (⟨S50000x128, .f32⟩ : BufTy).Contents (Elt F)) (x8 x9 : (⟨S500000, .i32⟩ : BufTy).Contents (Elt F)) :
    val_main_v26 (F := F) x0 x8 x9 = neighbourRows x0 x8 x9 := rfl

theorem clickedby (x1 : (⟨S50000x128, .f32⟩ : BufTy).Contents (Elt F)) (x12 x13 : (⟨S500000, .i32⟩ : BufTy).Contents (Elt F)) :
    val_main_v57 (F := F) x1 x12 x13 = neighbourRows x1 x12 x13 := rfl

theorem clicks (x0 : (⟨S50000x128, .f32⟩ : BufTy).Contents (Elt F)) (x10 x11 : (⟨S500000, .i32⟩ : BufTy).Contents (Elt F)) :
    val_main_v89 (F := F) x0 x10 x11 = neighbourRows x0 x10 x11 := rfl

end Cert.ReferenceIdeal.SameAggregation

end
-- ==== Proof.RefResults.lean ====
/-
  The reference's two results are `Results.users` and `Results.items` of its arguments: its dense stages are the
  whole-array layers (Proof/RefRows.lean) and its aggregation stages are `neighbourRows` (Proof/RefAggregate.lean).
-/
import proofs.«174860_j49366354100285_1_alg».proof.Proof.RefRows
import proofs.«174860_j49366354100285_1_alg».proof.Proof.RefAggregate
import proofs.«174860_j49366354100285_1_alg».proof.Proof.Results

noncomputable section

namespace Cert.ReferenceIdeal.RefResults

open Cert.ReferenceIdeal Cert.ReferenceIdeal.Read Idealize.ShloMosaic

/-- The user nodes' result. -/
theorem users (x0 x1 : (⟨S50000x128, .f32⟩ : BufTy).Contents (Elt Ideal)) (x2 : (⟨S128x128, .f32⟩ : BufTy).Contents (Elt Ideal)) (x3 : (⟨S128, .f32⟩ : BufTy).Contents (Elt Ideal)) (x6 : (⟨S128x128, .f32⟩ : BufTy).Contents (Elt Ideal)) (x7 : (⟨S128, .f32⟩ : BufTy).Contents (Elt Ideal)) (x8 x9 x12 x13 : (⟨S500000, .i32⟩ : BufTy).Contents (Elt Ideal)) :
    val_main_v62 (F := Ideal) x0 x1 x2 x3 x6 x7 x8 x9 x12 x13 = Cert.Results.users x0 x1 x2 x3 x6 x7 x8 x9 x12 x13 := by
  rw [Rows.users_result, SameAggregation.follows, SameAggregation.clickedby]
  rfl

/-- The item nodes' result. -/
theorem items (x0 : (⟨S50000x128, .f32⟩ : BufTy).Contents (Elt Ideal)) (x4 : (⟨S128x128, .f32⟩ : BufTy).Contents (Elt Ideal)) (x5 : (⟨S128, .f32⟩ : BufTy).Contents (Elt Ideal)) (x10 x11 : (⟨S500000, .i32⟩ : BufTy).Contents (Elt Ideal)) :
    val_main_v93 (F := Ideal) x0 x4 x5 x10 x11 = Cert.Results.items x0 x4 x5 x10 x11 := by
  rw [Rows.clicks_stage, SameAggregation.clicks]
  rfl

end Cert.ReferenceIdeal.RefResults

end
-- ==== Proof.lean ====
/-
  Two programs for one layer of a graph network on users and items, equal at the ideal values.

  Three relations (user follows user, item is clicked by user, user clicks item) each aggregate their source features
  over the edges — scale every source row by (its out-degree, at least 1)^(-1/2), add the scaled rows of an edge's source
  into the edge's destination, scale every destination row by (its in-degree, at least 1)^(-1/2) — and send the
  aggregated rows through a linear layer, `A · W + b`. The user nodes' new features are the sum of the two relations
  that end in users; the item nodes' are the one relation that ends in items.

  The reference does all of this with host operations. The kernel program does the aggregation with the same host
  operations, in the same order on the same arguments, and hands the dense stage to two kernels that work through the
  50000 rows a tile of 5000 at a time: the first computes both user relations' layers and adds them, the second
  computes the item relation's layer. At the ideal values narrowing the operands to bf16 changes nothing and a product
  accumulated into zero is the plain sum of the 128 products, so a tile of the kernel's output is the tile of the
  whole-array layer, an output row depending only on the same aggregated row; the ten tiles fill the array.

  Both programs therefore end with `Results.users` and `Results.items` of the arguments (Proof/Results.lean). No law of
  arithmetic beyond "zero plus a sum is the sum" is used: the two sides group their sums alike, so nothing needs an
  entry to be finite and the precondition is not opened. The ideal pass rewrote no operation, so the kernel program's
  idealization is its own text read at the ideal values.

  Modules: Proof/NodeRows (the layer on whole arrays), Proof/TileBody (one grid point, entry by entry), Proof/UserTiles
  and Proof/ItemTiles (a kernel's output array from its tiles), Proof/Aggregate (the shared aggregation), Proof/EntryLine,
  Proof/EntryFollows, Proof/EntryClickedBy, Proof/EntryClicks (what each kernel finds in its buffers), Proof/KernelRun
  (the kernel program's run with every buffer's end contents), Proof/KernelResults, Proof/RefRows, Proof/RefAggregate,
  Proof/RefResults (each side's two results), Proof/Results (the two results stated once).
-/
import proofs.«174860_j49366354100285_1_alg».proof.Defs
import proofs.«174860_j49366354100285_1_alg».proof.Proof.Gen.Kernel
import proofs.«174860_j49366354100285_1_alg».proof.Proof.Gen.Kernel.Skeleton
import proofs.«174860_j49366354100285_1_alg».proof.Proof.Gen.Kernel.Launch
import proofs.«174860_j49366354100285_1_alg».proof.Proof.Gen.Kernel.Points
import proofs.«174860_j49366354100285_1_alg».proof.Proof.Gen.Kernel.Frame
import proofs.«174860_j49366354100285_1_alg».proof.Proof.Gen.KernelIdeal
import proofs.«174860_j49366354100285_1_alg».proof.Proof.Gen.KernelIdeal.Skeleton
import proofs.«174860_j49366354100285_1_alg».proof.Proof.Gen.KernelIdeal.Launch
import proofs.«174860_j49366354100285_1_alg».proof.Proof.Gen.KernelIdeal.Points
import proofs.«174860_j49366354100285_1_alg».proof.Proof.Gen.KernelIdeal.Frame
import proofs.«174860_j49366354100285_1_alg».proof.Proof.Gen.ReferenceIdeal
import proofs.«174860_j49366354100285_1_alg».proof.Proof.Gen.ReferenceIdeal.Run
import proofs.«174860_j49366354100285_1_alg».proof.Proof.Gen.ReferenceIdeal.Read
import proofs.«174860_j49366354100285_1_alg».proof.Proof.Gen.Pre_finite_inputs
import proofs.«174860_j49366354100285_1_alg».proof.Proof.KernelRun
import proofs.«174860_j49366354100285_1_alg».proof.Proof.KernelResults
import proofs.«174860_j49366354100285_1_alg».proof.Proof.RefResults
import Idealize.ShloMosaic.Adequacy
import Idealize.ShloMosaic.Init

set_option maxRecDepth 16384

noncomputable section

namespace Cert.Proof

open Idealize.ShloMosaic Idealize.SL.Sem

/-- The kernel program as printed runs, and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the kernel program read at the ideal values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The ideal pass rewrote no operation: there is nothing to restate. -/
theorem preserves : Cert.preserves_Kernel_KernelIdeal := trivial

/-- From memories that agree on the arguments, both programs run and end with the same two arrays: the user nodes'
    and the item nodes' new features as functions of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Results.users (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.Results.items (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c =>
      ⟨(h c _ (Cert.KernelIdeal.Gen.mem_uc Cert.KernelIdeal.main_v83 (by decide))).trans (Cert.KernelIdeal.KernelResults.users m ρ c),
       (h c _ (Cert.KernelIdeal.Gen.mem_uc Cert.KernelIdeal.main_v85 (by decide))).trans (Cert.KernelIdeal.KernelResults.items m ρ c),
       (h c _ (Cert.KernelIdeal.Gen.mem_uc Cert.KernelIdeal.main_arg0 (by decide))).trans (Cert.KernelIdeal.Gen.W16_main_arg0 m ρ c),
       (h c _ (Cert.KernelIdeal.Gen.mem_uc Cert.KernelIdeal.main_arg1 (by decide))).trans (Cert.KernelIdeal.Gen.W16_main_arg1 m ρ c),
       (h c _ (Cert.KernelIdeal.Gen.mem_uc Cert.KernelIdeal.main_arg2 (by decide))).trans (Cert.KernelIdeal.Gen.W16_main_arg2 m ρ c),
       (h c _ (Cert.KernelIdeal.Gen.mem_uc Cert.KernelIdeal.main_arg3 (by decide))).trans (Cert.KernelIdeal.Gen.W16_main_arg3 m ρ c),
       (h c _ (Cert.KernelIdeal.Gen.mem_uc Cert.KernelIdeal.main_arg4 (by decide))).trans (Cert.KernelIdeal.Gen.W16_main_arg4 m ρ c),
       (h c _ (Cert.KernelIdeal.Gen.mem_uc Cert.KernelIdeal.main_arg5 (by decide))).trans (Cert.KernelIdeal.Gen.W16_main_arg5 m ρ c),
       (h c _ (Cert.KernelIdeal.Gen.mem_uc Cert.KernelIdeal.main_arg6 (by decide))).trans (Cert.KernelIdeal.Gen.W16_main_arg6 m ρ c),
       (h c _ (Cert.KernelIdeal.Gen.mem_uc Cert.KernelIdeal.main_arg7 (by decide))).trans (Cert.KernelIdeal.Gen.W16_main_arg7 m ρ c),
       (h c _ (Cert.KernelIdeal.Gen.mem_uc Cert.KernelIdeal.main_arg8 (by decide))).trans (Cert.KernelIdeal.Gen.W16_main_arg8 m ρ c),
       (h c _ (Cert.KernelIdeal.Gen.mem_uc Cert.KernelIdeal.main_arg9 (by decide))).trans (Cert.KernelIdeal.Gen.W16_main_arg9 m ρ c),
       (h c _ (Cert.KernelIdeal.Gen.mem_uc Cert.KernelIdeal.main_arg10 (by decide))).trans (Cert.KernelIdeal.Gen.W16_main_arg10 m ρ c),
       (h c _ (Cert.KernelIdeal.Gen.mem_uc Cert.KernelIdeal.main_arg11 (by decide))).trans (Cert.KernelIdeal.Gen.W16_main_arg11 m ρ c),
       (h c _ (Cert.KernelIdeal.Gen.mem_uc Cert.KernelIdeal.main_arg12 (by decide))).trans (Cert.KernelIdeal.Gen.W16_main_arg12 m ρ c),
       (h c _ (Cert.KernelIdeal.Gen.mem_uc Cert.KernelIdeal.main_arg13 (by decide))).trans (Cert.KernelIdeal.Gen.W16_main_arg13 m ρ c)⟩)
      (Cert.KernelIdeal.WholeRun.run_buffers m ρ)
  · refine (θ_run Cert.ReferenceIdeal.defs _ _).mono (fun _ h c => ?_) (Cert.ReferenceIdeal.Value.run (F := Ideal) m' ρ')
    obtain ⟨a0, a1, a2, a3, a4, a5, a6, a7, a8, a9, a10, a11, a12, a13⟩ := hagree c
    refine ⟨(h c).1.trans ((Cert.ReferenceIdeal.Read.val_main_v62_eq m' c).trans ((Cert.ReferenceIdeal.RefResults.users (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13))).trans ?_)),
      (h c).2.1.trans ((Cert.ReferenceIdeal.Read.val_main_v93_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ((Cert.ReferenceIdeal.RefResults.items (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))).trans ?_)),
      (h c).2.2⟩
    · rw [a0, a1, a2, a3, a6, a7, a8, a9, a12, a13]
    · rw [a0, a4, a5, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
